-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S512x4096 : Shape := ⟨2, ![512, 4096]⟩
abbrev S1024x4096 : Shape := ⟨2, ![1024, 4096]⟩
abbrev S4096 : Shape := ⟨1, ![4096]⟩
abbrev S4x1024 : Shape := ⟨2, ![4, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S512x4096 : S_.BroadcastsInDim S512x4096 (![] : Fin 0 → Fin S512x4096.rank)
  reducesTo_S512x4096_S_d0_1 : S512x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4x1024 : S_.BroadcastsInDim S4x1024 (![] : Fin 0 → Fin S4x1024.rank)
  reducesTo_S4x1024_S_d0_1 : S4x1024.ReducesTo [0, 1] S_

variable [Facts]

def fn_part2 {F : FTy → Type} [FloatOps F] (main_arg7 : FVec F S4x1024 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  main_v38

def fn_part1 {F : FTy → Type} [FloatOps F] (main_arg4 : FVec F S1024x4096 .f32) (main_arg5 : FVec F S4096 .f32) (main_arg6 : FVec F S4x1024 .f32) (main_arg7 : FVec F S4x1024 .f32) (main_v13 : IVec S_ 1) (main_v16 : IVec S512x4096 1) : IVec S_ 1 :=
  let main_c_5 : IVec S_ 1 := constantI S_ 1 1#1
  let main_v17 : IVec S_ 1 := (fun x v => Host.reduce IntOp.andi x v reducesTo_S512x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg7 main_v33

def fn {F : FTy → Type} [FloatOps F] (main_arg0 : FVec F S8192x512 .f32) (main_arg1 : FVec F S8192x1024 .f32) (main_arg2 : FVec F S8192x1024 .f32) (main_arg3 : FVec F S512x4096 .f32) (main_arg4 : FVec F S1024x4096 .f32) (main_arg5 : FVec F S4096 .f32) (main_arg6 : FVec F S4x1024 .f32) (main_arg7 : FVec F S4x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S512x4096 .f32 := Host.absf main_arg3
  let main_cst_4 : FVec F S_ .f32 := constant S_ .f32 0x7F800000#32
  let main_v15 : FVec F S512x4096 .f32 := broadcastInDim S512x4096 ![] bcast_S_S512x4096 main_cst_4
  let main_v16 : IVec S512x4096 1 := cmpf .olt main_v14 main_v15
  fn_part1 (F := F) main_arg4 main_arg5 main_arg6 main_arg7 main_v13 main_v16
-- ==== Kernel.lean ====
abbrev S8192x512 : Shape := ⟨2, ![8192, 512]⟩
abbrev S8192x1024 : Shape := ⟨2, ![8192, 1024]⟩
abbrev S512x4096 : Shape := ⟨2, ![512, 4096]⟩
abbrev S1024x4096 : Shape := ⟨2, ![1024, 4096]⟩
abbrev S4096 : Shape := ⟨1, ![4096]⟩
abbrev S4x1024 : Shape := ⟨2, ![4, 1024]⟩
abbrev S1x4096 : Shape := ⟨2, ![1, 4096]⟩
abbrev S256x512 : Shape := ⟨2, ![256, 512]⟩
abbrev S256x1024 : Shape := ⟨2, ![256, 1024]⟩
abbrev S256x4096 : Shape := ⟨2, ![256, 4096]⟩
abbrev S1x1024 : Shape := ⟨2, ![1, 1024]⟩
abbrev S256 : Shape := ⟨1, ![256]⟩
abbrev S256x1 : Shape := ⟨2, ![256, 1]⟩

abbrev nBuf : Space → Nat
  | .hbm => 13
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S512x4096, .f32⟩
  | .hbm, ⟨4, _⟩ => ⟨S1024x4096, .f32⟩
  | .hbm, ⟨5, _⟩ => ⟨S4096, .f32⟩
  | .hbm, ⟨6, _⟩ => ⟨S4x1024, .f32⟩
  | .hbm, ⟨7, _⟩ => ⟨S4x1024, .f32⟩
  | .hbm, ⟨8, _⟩ => ⟨S512x4096, .bf16⟩
  | .hbm, ⟨9, _⟩ => ⟨S1024x4096, .bf16⟩
  | .hbm, ⟨10, _⟩ => ⟨S1x4096, .f32⟩
  | .hbm, ⟨11, _⟩ => ⟨S8192x1024, .f32⟩
  | .hbm, ⟨12, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S512x4096, .bf16⟩
  | .local _ .vmem, ⟨7, _⟩ => ⟨S1024x4096, .bf16⟩
  | .local _ .vmem, ⟨8, _⟩ => ⟨S1x4096, .f32⟩
  | .local _ .vmem, ⟨9, _⟩ => ⟨S4x1024, .f32⟩
  | .local _ .vmem, ⟨10, _⟩ => ⟨S4x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S4096_S1x4096 : S4096.ShapeCasts S1x4096
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4x1024_S4x1024_0_0 : ∀ a, (![0, 0] : Fin 2 → Nat) a + S4x1024.size a ≤ S4x1024.size a
  h_S4x1024 : 0 < S4x1024.numel
  slices_S256x4096_o0_0_S256x1024 : S256x4096.Slices ![0, 0] S256x1024
  slices_S4x1024_o0_0_S1x1024 : S4x1024.Slices ![0, 0] S1x1024
  reduces_S256x1024_S256 : S256x1024.Reduces [1] S256
  shapeCasts_S256_S256x1 : S256.ShapeCasts S256x1
  broadcasts_S256x1_S256x1024 : S256x1.Broadcasts S256x1024
  broadcasts_S1x1024_S256x1024 : S1x1024.Broadcasts S256x1024
  slices_S256x4096_o0_1024_S256x1024 : S256x4096.Slices ![0, 1024] S256x1024
  slices_S4x1024_o1_0_S1x1024 : S4x1024.Slices ![1, 0] S1x1024
  slices_S256x4096_o0_2048_S256x1024 : S256x4096.Slices ![0, 2048] S256x1024
  slices_S4x1024_o2_0_S1x1024 : S4x1024.Slices ![2, 0] S1x1024
  slices_S256x4096_o0_3072_S256x1024 : S256x4096.Slices ![0, 3072] S256x1024
  slices_S4x1024_o3_0_S1x1024 : S4x1024.Slices ![3, 0] S1x1024
  dot_S256x512_S512x4096_S256x4096_1_0_0_1_n_n_wf : DotDims.WF S256x512 S512x4096 S256x4096 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S512x4096.size a
  hwx0_3 : ∀ i : grid0.Coords, EltTy.bits .bf16 = 32 ∨ (Rect.block (s := S512x4096) S512x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024.size a ≤ S4x1024.size a
  hwx0_6 : ∀ i : grid0.Coords, EltTy.bits .f32 = 32 ∨ (Rect.block (s := S4x1024) S4x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1024.size a ≤ S4x1024.size a
  hwx0_7 : ∀ i : grid0.Coords, EltTy.bits .f32 = 32 ∨ (Rect.block (s := S4x1024) S4x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S512x4096 : Shape := ⟨2, ![512, 4096]⟩
abbrev S1024x4096 : Shape := ⟨2, ![1024, 4096]⟩
abbrev S4096 : Shape := ⟨1, ![4096]⟩
abbrev S4x1024 : Shape := ⟨2, ![4, 1024]⟩
abbrev S8192x4096 : Shape := ⟨2, ![8192, 4096]⟩
abbrev S1x4096 : Shape := ⟨2, ![1, 4096]⟩
abbrev S8192x4x1024 : Shape := ⟨3, ![8192, 4, 1024]⟩
abbrev S_ : Shape := ⟨0, ![]⟩
abbrev S8192x4 : Shape := ⟨2, ![8192, 4]⟩
abbrev S8192x4x1 : Shape := ⟨3, ![8192, 4, 1]⟩
abbrev S1x4x1024 : Shape := ⟨3, ![1, 4, 1024]⟩
abbrev S8192x1x1024 : Shape := ⟨3, ![8192, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S512x4096, .f32⟩
  | .hbm, ⟨4, _⟩ => ⟨S1024x4096, .f32⟩
  | .hbm, ⟨5, _⟩ => ⟨S4096, .f32⟩
  | .hbm, ⟨6, _⟩ => ⟨S4x1024, .f32⟩
  | .hbm, ⟨7, _⟩ => ⟨S4x1024, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x4x1024, .f32⟩
  | .hbm, ⟨15, _⟩ => ⟨S_, .f32⟩
  | .hbm, ⟨16, _⟩ => ⟨S8192x4, .f32⟩
  | .hbm, ⟨17, _⟩ => ⟨S8192x4x1, .f32⟩
  | .hbm, ⟨18, _⟩ => ⟨S_, .f32⟩
  | .hbm, ⟨19, _⟩ => ⟨S8192x4x1, .f32⟩
  | .hbm, ⟨20, _⟩ => ⟨S8192x4x1, .f32⟩
  | .hbm, ⟨21, _⟩ => ⟨S8192x4x1024, .f32⟩
  | .hbm, ⟨22, _⟩ => ⟨S8192x4x1024, .f32⟩
  | .hbm, ⟨23, _⟩ => ⟨S8192x4x1024, .f32⟩
  | .hbm, ⟨24, _⟩ => ⟨S_, .f32⟩
  | .hbm, ⟨25, _⟩ => ⟨S8192x4, .f32⟩
  | .hbm, ⟨26, _⟩ => ⟨S8192x4x1, .f32⟩
  | .hbm, ⟨27, _⟩ => ⟨S_, .f32⟩
  | .hbm, ⟨28, _⟩ => ⟨S8192x4x1, .f32⟩
  | .hbm, ⟨29, _⟩ => ⟨S8192x4x1, .f32⟩
  | .hbm, ⟨30, _⟩ => ⟨S8192x4x1024, .f32⟩
  | .hbm, ⟨31, _⟩ => ⟨S8192x4x1024, .f32⟩
  | .hbm, ⟨32, _⟩ => ⟨S_, .f32⟩
  | .hbm, ⟨33, _⟩ => ⟨S8192x4x1, .f32⟩
  | .hbm, ⟨34, _⟩ => ⟨S8192x4x1, .f32⟩
  | .hbm, ⟨35, _⟩ => ⟨S8192x4x1, .f32⟩
  | .hbm, ⟨36, _⟩ => ⟨S8192x4x1024, .f32⟩
  | .hbm, ⟨37, _⟩ => ⟨S8192x4x1024, .f32⟩
  | .hbm, ⟨38, _⟩ => ⟨S1x4x1024, .f32⟩
  | .hbm, ⟨39, _⟩ => ⟨S8192x4x1024, .f32⟩
  | .hbm, ⟨40, _⟩ => ⟨S8192x4x1024, .f32⟩
  | .hbm, ⟨41, _⟩ => ⟨S1x4x1024, .f32⟩
  | .hbm, ⟨42, _⟩ => ⟨S8192x4x1024, .f32⟩
  | .hbm, ⟨43, _⟩ => ⟨S8192x4x1024, .f32⟩
  | .hbm, ⟨44, _⟩ => ⟨S8192x1x1024, .f32⟩
  | .hbm, ⟨45, _⟩ => ⟨S8192x1024, .f32⟩
  | .hbm, ⟨46, _⟩ => ⟨S8192x1x1024, .f32⟩
  | .hbm, ⟨47, _⟩ => ⟨S8192x1024, .f32⟩
  | .hbm, ⟨48, _⟩ => ⟨S8192x1x1024, .f32⟩
  | .hbm, ⟨49, _⟩ => ⟨S8192x1024, .f32⟩
  | .hbm, ⟨50, _⟩ => ⟨S8192x1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x4x1024 : S8192x4096.ShapeCasts S8192x4x1024
  reducesTo_S8192x4x1024_S8192x4_d2 : S8192x4x1024.ReducesTo [2] S8192x4
  h_S_ : 0 < S_.numel
  bcast_S8192x4_S8192x4x1_0_1 : S8192x4.BroadcastsInDim S8192x4x1 (![0, 1] : Fin 2 → Fin S8192x4x1.rank)
  bcast_S_S8192x4x1 : S_.BroadcastsInDim S8192x4x1 (![] : Fin 0 → Fin S8192x4x1.rank)
  bcast_S8192x4x1_S8192x4x1024_0_1_2 : S8192x4x1.BroadcastsInDim S8192x4x1024 (![0, 1, 2] : Fin 3 → Fin S8192x4x1024.rank)
  bcast_S4x1024_S1x4x1024_1_2 : S4x1024.BroadcastsInDim S1x4x1024 (![1, 2] : Fin 2 → Fin S1x4x1024.rank)
  bcast_S1x4x1024_S8192x4x1024_0_1_2 : S1x4x1024.BroadcastsInDim S8192x4x1024 (![0, 1, 2] : Fin 3 → Fin S8192x4x1024.rank)
  slices_S8192x4x1024_S8192x1x1024_0_0_0 : S8192x4x1024.Slices ![0, 0, 0] S8192x1x1024
  shapeCasts_S8192x1x1024_S8192x1024 : S8192x1x1024.ShapeCasts S8192x1024
  slices_S8192x4x1024_S8192x1x1024_0_1_0 : S8192x4x1024.Slices ![0, 1, 0] S8192x1x1024
  slices_S8192x4x1024_S8192x1x1024_0_2_0 : S8192x4x1024.Slices ![0, 2, 0] S8192x1x1024
  slices_S8192x4x1024_S8192x1x1024_0_3_0 : S8192x4x1024.Slices ![0, 3, 0] S8192x1x1024
  bcast_S_S8192x1024 : S_.BroadcastsInDim S8192x1024 (![] : Fin 0 → Fin S8192x1024.rank)
  dot_S8192x512_S512x4096_S8192x4096_1_0_0_1_n_n_wf : DotDims.WF S8192x512 S512x4096 S8192x4096 [1] [0] [0] [1] [] []
  dot_S8192x1024_S1024x4096_S8192x4096_1_0_0_1_n_n_wf : DotDims.WF S8192x1024 S1024x4096 S8192x4096 [1] [0] [0] [1] [] []

variable [Facts₀]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.Spec.lean ====
/-
  One step of a layer-normalised LSTM cell, stated once, index by index, on the extended reals.

  For one batch row the four gates' pre-activations form a row of 4·1024 numbers
      pre(q) = Σ_{k<512} x(k)·Wi(k, q) + Σ_{k<1024} h(k)·Wh(k, q) + bh(q),
  gate g (input, forget, cell, output for g = 0, 1, 2, 3) owning the columns g·1024 … g·1024 + 1023. Each gate's
  1024 numbers are normalised on their own: with μ the mean of the row v and σ² the mean of (v − μ)²,
      lnorm v γ β (j) = (v(j) − μ) · rsqrt(σ² + ε) · γ(j) + β(j),
  the two means being the sums divided by the f32 word for 1024 and ε the f32 word nearest 1e-5 (both left as the
  words the two programs print: they are never evaluated). With i, f, g, o the four normalised gates the new cell
  and hidden values at column j are
      c'(j) = logistic(f(j))·c(j) + logistic(i(j))·tanh(g(j)),        h'(j) = logistic(o(j))·tanh(c'(j)).
  Everything is a composition of the exact operations of the extended reals; no algebraic law is used anywhere, so
  no finiteness of the inputs is needed.
-/
import Idealize.ShloMosaic.PureOps.Ideal.Laws
import Idealize.ShloMosaic.Lib.ValueIdx

noncomputable section

open scoped BigOperators

namespace Cert.LstmSpec

open Idealize.ShloMosaic Idealize.ShloMosaic.ValueIdx

/-- The divisor of a mean over 1024 entries: the f32 word of 1024. -/
abbrev width : EReal := Ideal.ofBits .f32 0x44800000#32
/-- The stabiliser under the reciprocal square root: the f32 word nearest 1e-5. -/
abbrev eps : EReal := Ideal.ofBits .f32 0x3727C5AC#32

/-- The f32 word of 1 is the extended real 1. -/
theorem one_f32 : Ideal.ofBits .f32 0x3F800000#32 = 1 := by
  simp [Ideal.ofBits, Ideal.ieee]
  rw [← EReal.coe_mul]
  norm_num

/-- The mean of a row of 1024 numbers. -/
def mean (v : Fin 1024 → EReal) : EReal := Ideal.div (∑ k, v k) width

/-- Layer normalisation of a row of 1024 numbers with gain γ and offset β, at column j. -/
def lnorm (v g b : Fin 1024 → EReal) (j : Fin 1024) : EReal :=
  (v j - mean v) * Ideal.rsqrt (mean (fun k => (v k - mean v) * (v k - mean v)) + eps) * g j + b j

/-- Column k of gate g among the 4·1024 pre-activation columns. -/
def col (g : Fin 4) (k : Fin 1024) : Fin 4096 := ⟨g.val * 1024 + k.val, by have := g.isLt; have := k.isLt; omega⟩

/-- Gate g of a row of pre-activations, normalised with row g of the gains and offsets, at column j. -/
def act (pre : Fin 4096 → EReal) (gam bet : (⟨2, ![4, 1024]⟩ : Shape).Idx → EReal) (g : Fin 4) (j : Fin 1024) : EReal :=
  lnorm (fun k => pre (col g k)) (fun k => gam (ix2 g k)) (fun k => bet (ix2 g k)) j

/-- The new cell value at column j, from the row's pre-activations and the old cell value there. -/
def cellC (pre : Fin 4096 → EReal) (gam bet : (⟨2, ![4, 1024]⟩ : Shape).Idx → EReal) (cp : EReal) (j : Fin 1024) : EReal :=
  Ideal.logistic (act pre gam bet 1 j) * cp + Ideal.logistic (act pre gam bet 0 j) * Ideal.tanh (act pre gam bet 2 j)

/-- The new hidden value at column j. -/
def cellH (pre : Fin 4096 → EReal) (gam bet : (⟨2, ![4, 1024]⟩ : Shape).Idx → EReal) (cp : EReal) (j : Fin 1024) : EReal :=
  Ideal.logistic (act pre gam bet 3 j) * Ideal.tanh (cellC pre gam bet cp j)

/-- A row's pre-activations: the row of x against Wi, plus the row of h against Wh, plus the bias. -/
def pre (xr : Fin 512 → EReal) (hr : Fin 1024 → EReal) (Wi : (⟨2, ![512, 4096]⟩ : Shape).Idx → EReal)
    (Wh : (⟨2, ![1024, 4096]⟩ : Shape).Idx → EReal) (bh : Fin 4096 → EReal) (q : Fin 4096) : EReal :=
  (∑ k : Fin 512, xr k * Wi (ix2 k q)) + (∑ k : Fin 1024, hr k * Wh (ix2 k q)) + bh q

section Arrays
variable (x : (⟨2, ![8192, 512]⟩ : Shape).Idx → EReal) (h c : (⟨2, ![8192, 1024]⟩ : Shape).Idx → EReal)
  (Wi : (⟨2, ![512, 4096]⟩ : Shape).Idx → EReal) (Wh : (⟨2, ![1024, 4096]⟩ : Shape).Idx → EReal)
  (bh : (⟨1, ![4096]⟩ : Shape).Idx → EReal) (gam bet : (⟨2, ![4, 1024]⟩ : Shape).Idx → EReal)

/-- Batch row p's pre-activations, from the whole arrays. -/
def preRow (p : Fin 8192) : Fin 4096 → EReal :=
  pre (fun k => x (ix2 p k)) (fun k => h (ix2 p k)) Wi Wh (fun q => bh (ix1 q))

/-- The new cell array: entry (p, j) from batch row p. -/
def newC : (⟨2, ![8192, 1024]⟩ : Shape).Idx → EReal := fun i =>
  cellC (preRow x h Wi Wh bh (i 0)) gam bet (c (ix2 (i 0) (i 1))) (i 1)

/-- The new hidden array. -/
def newH : (⟨2, ![8192, 1024]⟩ : Shape).Idx → EReal := fun i =>
  cellH (preRow x h Wi Wh bh (i 0)) gam bet (c (ix2 (i 0) (i 1))) (i 1)

end Arrays

end Cert.LstmSpec

end
-- ==== Proof.RefCell.lean ====
/-
  The reference, read one operation at a time, is the cell of Spec.lean.

  The reference forms the whole [8192, 4096] matrix of pre-activations, views it as [8192, 4, 1024] (entry (p, g, j) is
  column g·1024 + j of row p), normalises along the last axis with the gains and offsets broadcast over the batch, takes
  the four gates back out as [8192, 1024] matrices, and writes the logistic function as 1 / (1 + exp(−y)); read at
  one entry (p, j) each stage is the corresponding stage of the cell of batch row p.
-/
import proofs.«152445_j65120294142269_2_alg».proof.Proof.Gen.ReferenceIdeal.Read
import proofs.«152445_j65120294142269_2_alg».proof.Proof.Spec

noncomputable section

open scoped BigOperators

namespace Cert.LstmRef

open Cert.ReferenceIdeal Cert.ReferenceIdeal.Gen Cert.ReferenceIdeal.Read Cert.LstmSpec Idealize.ShloMosaic Idealize.ShloMosaic.ValueIdx

variable (x0 : (⟨S8192x512, .f32⟩ : BufTy).Contents (Elt Ideal)) (x1 x2 : (⟨S8192x1024, .f32⟩ : BufTy).Contents (Elt Ideal))
  (x3 : (⟨S512x4096, .f32⟩ : BufTy).Contents (Elt Ideal)) (x4 : (⟨S1024x4096, .f32⟩ : BufTy).Contents (Elt Ideal))
  (x5 : (⟨S4096, .f32⟩ : BufTy).Contents (Elt Ideal)) (x6 x7 : (⟨S4x1024, .f32⟩ : BufTy).Contents (Elt Ideal))

/-- The pre-activation matrix at (p, q): row p of x against column q of Wi, plus row p of h against column q of Wh,
    plus the bias at q. -/
theorem pre_apply (p : Fin 8192) (q : Fin 4096) :
    val_main_v5 (F := Ideal) x0 x1 x3 x4 x5 (ix2 p q) = preRow x0 x1 x3 x4 x5 p q := by
  have el0 : ∀ k : Fin 512, lidx_main_v0 (ix2 p q) k = ix2 p k := fun k => funext fun a => by
    match a with | ⟨0, _⟩ => rfl | ⟨1, _⟩ => rfl
  have er0 : ∀ k : Fin 512, ridx_main_v0 (ix2 p q) k = ix2 k q := fun k => funext fun a => by
    match a with | ⟨0, _⟩ => rfl | ⟨1, _⟩ => rfl
  have el1 : ∀ k : Fin 1024, lidx_main_v1 (ix2 p q) k = ix2 p k := fun k => funext fun a => by
    match a with | ⟨0, _⟩ => rfl | ⟨1, _⟩ => rfl
  have er1 : ∀ k : Fin 1024, ridx_main_v1 (ix2 p q) k = ix2 k q := fun k => funext fun a => by
    match a with | ⟨0, _⟩ => rfl | ⟨1, _⟩ => rfl
  have eb : idx_main_v3 (idx_main_v4 (ix2 p q)) = ix1 q := funext fun a => by
    match a with | ⟨0, _⟩ => rfl
  rw [val_main_v5_apply, val_main_v2_apply, val_main_v0_apply, val_main_v1_apply, val_main_v4_apply, val_main_v3_apply, eb]
  simp only [el0, er0, el1, er1]
  rfl

/-- The [8192, 4, 1024] view at (p, g, j) is the pre-activation of row p at column g·1024 + j. -/
theorem view_apply (p : Fin 8192) (g : Fin 4) (j : Fin 1024) :
    val_main_v6 (F := Ideal) x0 x1 x3 x4 x5 (ix3 p g j) = preRow x0 x1 x3 x4 x5 p (col g j) := by
  have e : idx_main_v6 (ix3 p g j) = ix2 p (col g j) := funext fun a => Fin.ext (by
    have hp := p.isLt; have hg := g.isLt; have hj := j.isLt
    match a with
    | ⟨0, _⟩ => show ((p.val * 4 + g.val) * 1024 + j.val) / 4096 = p.val; omega
    | ⟨1, _⟩ => show ((p.val * 4 + g.val) * 1024 + j.val) % 4096 = g.val * 1024 + j.val; omega)
  rw [val_main_v6_apply, e, pre_apply]

/-- Gate g of batch row p: its 1024 pre-activations. -/
abbrev gateRow (p : Fin 8192) (g : Fin 4) : Fin 1024 → EReal := fun k => preRow x0 x1 x3 x4 x5 p (col g k)

/-- The first reduction: gate g of row p summed over its 1024 columns (the initial value is the zero word). -/
theorem rowsum_apply (p : Fin 8192) (g : Fin 4) :
    val_main_v7 (F := Ideal) x0 x1 x3 x4 x5 (ix2 p g) = ∑ k, gateRow x0 x1 x3 x4 x5 p g k := by
  rw [val_main_v7_apply]
  refine (congrArg₂ (· + ·) (show val_main_cst (F := Ideal) (Shape.Idx.first h_S_) = 0 from Ideal.ofBits_zero_f32)
    (Finset.sum_congr rfl fun k _ => ?_)).trans (zero_add _)
  rw [show idx_main_v7 (ix2 p g) k = ix3 p g k from funext fun a => by
    match a with | ⟨0, _⟩ => rfl | ⟨1, _⟩ => rfl | ⟨2, _⟩ => rfl, view_apply]

/-- The mean of gate g of row p, kept as a [8192, 4, 1] array. -/
theorem mean_apply (p : Fin 8192) (g : Fin 4) (u : Fin 1) :
    val_main_v10 (F := Ideal) x0 x1 x3 x4 x5 (ix3 p g u) = mean (gateRow x0 x1 x3 x4 x5 p g) := by
  rw [val_main_v10_apply, val_main_v8_apply, val_main_v9_apply, val_main_cst_0_apply,
    show idx_main_v8 (ix3 p g u) = ix2 p g from funext fun a => by
      match a with | ⟨0, _⟩ => rfl | ⟨1, _⟩ => rfl, rowsum_apply]
  rfl

/-- Gate g of row p less its mean, at column j (the operand of the square). -/
theorem centred_apply (p : Fin 8192) (g : Fin 4) (j : Fin 1024) :
    val_main_v12 (F := Ideal) x0 x1 x3 x4 x5 (ix3 p g j)
      = gateRow x0 x1 x3 x4 x5 p g j - mean (gateRow x0 x1 x3 x4 x5 p g) := by
  rw [val_main_v12_apply, val_main_v11_apply, view_apply,
    show idx_main_v11 (ix3 p g j) = ix3 p g (0 : Fin 1) from funext fun a => by
      match a with | ⟨0, _⟩ => rfl | ⟨1, _⟩ => rfl | ⟨2, _⟩ => rfl, mean_apply]
  rfl

/-- The second reduction: the squares of the centred gate summed over its columns. -/
theorem sqsum_apply (p : Fin 8192) (g : Fin 4) :
    val_main_v14 (F := Ideal) x0 x1 x3 x4 x5 (ix2 p g)
      = ∑ k, (gateRow x0 x1 x3 x4 x5 p g k - mean (gateRow x0 x1 x3 x4 x5 p g))
          * (gateRow x0 x1 x3 x4 x5 p g k - mean (gateRow x0 x1 x3 x4 x5 p g)) := by
  rw [val_main_v14_apply]
  refine (congrArg₂ (· + ·) (show val_main_cst_1 (F := Ideal) (Shape.Idx.first h_S_) = 0 from Ideal.ofBits_zero_f32)
    (Finset.sum_congr rfl fun k _ => ?_)).trans (zero_add _)
  rw [show idx_main_v14 (ix2 p g) k = ix3 p g k from funext fun a => by
    match a with | ⟨0, _⟩ => rfl | ⟨1, _⟩ => rfl | ⟨2, _⟩ => rfl, val_main_v13_apply, centred_apply]
  rfl

/-- The variance of gate g of row p. -/
theorem var_apply (p : Fin 8192) (g : Fin 4) (u : Fin 1) :
    val_main_v17 (F := Ideal) x0 x1 x3 x4 x5 (ix3 p g u)
      = mean (fun k => (gateRow x0 x1 x3 x4 x5 p g k - mean (gateRow x0 x1 x3 x4 x5 p g))
          * (gateRow x0 x1 x3 x4 x5 p g k - mean (gateRow x0 x1 x3 x4 x5 p g))) := by
  rw [val_main_v17_apply, val_main_v15_apply, val_main_v16_apply, val_main_cst_2_apply,
    show idx_main_v15 (ix3 p g u) = ix2 p g from funext fun a => by
      match a with | ⟨0, _⟩ => rfl | ⟨1, _⟩ => rfl, sqsum_apply]
  rfl

/-- Gate g of row p less its mean again (the operand of the scaling). -/
theorem centred_apply' (p : Fin 8192) (g : Fin 4) (j : Fin 1024) :
    val_main_v19 (F := Ideal) x0 x1 x3 x4 x5 (ix3 p g j)
      = gateRow x0 x1 x3 x4 x5 p g j - mean (gateRow x0 x1 x3 x4 x5 p g) := by
  rw [val_main_v19_apply, val_main_v18_apply, view_apply,
    show idx_main_v18 (ix3 p g j) = ix3 p g (0 : Fin 1) from funext fun a => by
      match a with | ⟨0, _⟩ => rfl | ⟨1, _⟩ => rfl | ⟨2, _⟩ => rfl, mean_apply]
  rfl

/-- The reciprocal standard deviation of gate g of row p. -/
theorem rstd_apply (p : Fin 8192) (g : Fin 4) (u : Fin 1) :
    val_main_v22 (F := Ideal) x0 x1 x3 x4 x5 (ix3 p g u)
      = Ideal.rsqrt (mean (fun k => (gateRow x0 x1 x3 x4 x5 p g k - mean (gateRow x0 x1 x3 x4 x5 p g))
          * (gateRow x0 x1 x3 x4 x5 p g k - mean (gateRow x0 x1 x3 x4 x5 p g))) + eps) := by
  rw [val_main_v22_apply, val_main_v21_apply, var_apply, val_main_v20_apply, val_main_cst_3_apply]
  rfl

/-- The normalised array at (p, g, j) is gate g of row p normalised with row g of the gains and offsets. -/
theorem lnorm_apply (p : Fin 8192) (g : Fin 4) (j : Fin 1024) :
    val_main_v30 (F := Ideal) x0 x1 x3 x4 x5 x6 x7 (ix3 p g j) = act (preRow x0 x1 x3 x4 x5 p) x6 x7 g j := by
  rw [val_main_v30_apply, val_main_v27_apply, val_main_v24_apply, centred_apply', val_main_v23_apply,
    show idx_main_v23 (ix3 p g j) = ix3 p g (0 : Fin 1) from funext fun a => by
      match a with | ⟨0, _⟩ => rfl | ⟨1, _⟩ => rfl | ⟨2, _⟩ => rfl, rstd_apply,
    val_main_v26_apply, val_main_v25_apply,
    show idx_main_v25 (idx_main_v26 (ix3 p g j)) = ix2 g j from funext fun a => by
      match a with | ⟨0, _⟩ => rfl | ⟨1, _⟩ => rfl,
    val_main_v29_apply, val_main_v28_apply,
    show idx_main_v28 (idx_main_v29 (ix3 p g j)) = ix2 g j from funext fun a => by
      match a with | ⟨0, _⟩ => rfl | ⟨1, _⟩ => rfl]
  rfl

/-- The flat position of (p, j) in an [8192, 1024] matrix, split by 1024, gives back p and j. -/
theorem split_pos (p : Fin 8192) (j : Fin 1024) :
    (p.val * 1024 + j.val) / 1024 = p.val ∧ (p.val * 1024 + j.val) % 1024 = j.val := by
  have := j.isLt; omega

/-- The four gates taken back out as [8192, 1024] matrices. -/
theorem gate0_apply (p : Fin 8192) (j : Fin 1024) :
    val_main_v32 (F := Ideal) x0 x1 x3 x4 x5 x6 x7 (ix2 p j) = act (preRow x0 x1 x3 x4 x5 p) x6 x7 0 j := by
  rw [val_main_v32_apply, val_main_v31_apply,
    show idx_main_v31 (idx_main_v32 (ix2 p j)) = ix3 p (0 : Fin 4) j from funext fun a => Fin.ext (by
      match a with
      | ⟨0, _⟩ => exact (split_pos p j).1
      | ⟨1, _⟩ => rfl
      | ⟨2, _⟩ => exact (split_pos p j).2), lnorm_apply]
theorem gate1_apply (p : Fin 8192) (j : Fin 1024) :
    val_main_v34 (F := Ideal) x0 x1 x3 x4 x5 x6 x7 (ix2 p j) = act (preRow x0 x1 x3 x4 x5 p) x6 x7 1 j := by
  rw [val_main_v34_apply, val_main_v33_apply,
    show idx_main_v33 (idx_main_v34 (ix2 p j)) = ix3 p (1 : Fin 4) j from funext fun a => Fin.ext (by
      match a with
      | ⟨0, _⟩ => exact (split_pos p j).1
      | ⟨1, _⟩ => rfl
      | ⟨2, _⟩ => exact (split_pos p j).2), lnorm_apply]
theorem gate2_apply (p : Fin 8192) (j : Fin 1024) :
    val_main_v36 (F := Ideal) x0 x1 x3 x4 x5 x6 x7 (ix2 p j) = act (preRow x0 x1 x3 x4 x5 p) x6 x7 2 j := by
  rw [val_main_v36_apply, val_main_v35_apply,
    show idx_main_v35 (idx_main_v36 (ix2 p j)) = ix3 p (2 : Fin 4) j from funext fun a => Fin.ext (by
      match a with
      | ⟨0, _⟩ => exact (split_pos p j).1
      | ⟨1, _⟩ => rfl
      | ⟨2, _⟩ => exact (split_pos p j).2), lnorm_apply]
theorem gate3_apply (p : Fin 8192) (j : Fin 1024) :
    val_main_v38 (F := Ideal) x0 x1 x3 x4 x5 x6 x7 (ix2 p j) = act (preRow x0 x1 x3 x4 x5 p) x6 x7 3 j := by
  rw [val_main_v38_apply, val_main_v37_apply,
    show idx_main_v37 (idx_main_v38 (ix2 p j)) = ix3 p (3 : Fin 4) j from funext fun a => Fin.ext (by
      match a with
      | ⟨0, _⟩ => exact (split_pos p j).1
      | ⟨1, _⟩ => rfl
      | ⟨2, _⟩ => exact (split_pos p j).2), lnorm_apply]

/-- 1 / (1 + exp(−y)), with both ones the f32 word of 1, is the logistic function. -/
theorem logistic_form (y : EReal) :
    Ideal.div (Ideal.ofBits .f32 0x3F800000#32) (Ideal.ofBits .f32 0x3F800000#32 + Ideal.exp (-y)) = Ideal.logistic y := by
  rw [one_f32]; rfl

/-- The new cell matrix of the reference at (p, j) is the cell of batch row p at column j. -/
theorem newC_apply (p : Fin 8192) (j : Fin 1024) :
    val_main_v54 (F := Ideal) x0 x1 x2 x3 x4 x5 x6 x7 (ix2 p j) = newC x0 x1 x2 x3 x4 x5 x6 x7 (ix2 p j) := by
  rw [val_main_v54_apply, val_main_v45_apply, val_main_v44_apply, val_main_v43_apply, val_main_cst_5_apply,
    val_main_v42_apply, val_main_v41_apply, val_main_cst_4_apply, val_main_v40_apply, val_main_v39_apply, gate1_apply,
    val_main_v53_apply, val_main_v51_apply, val_main_v50_apply, val_main_cst_7_apply, val_main_v49_apply,
    val_main_v48_apply, val_main_cst_6_apply, val_main_v47_apply, val_main_v46_apply, gate0_apply,
    val_main_v52_apply, gate2_apply]
  show Ideal.div (Ideal.ofBits .f32 0x3F800000#32) (Ideal.ofBits .f32 0x3F800000#32 + Ideal.exp (-(act (preRow x0 x1 x3 x4 x5 p) x6 x7 1 j))) * x2 (ix2 p j)
      + Ideal.div (Ideal.ofBits .f32 0x3F800000#32) (Ideal.ofBits .f32 0x3F800000#32 + Ideal.exp (-(act (preRow x0 x1 x3 x4 x5 p) x6 x7 0 j))) * Ideal.tanh (act (preRow x0 x1 x3 x4 x5 p) x6 x7 2 j) = _
  rw [logistic_form, logistic_form]
  rfl

/-- The new hidden matrix of the reference at (p, j). -/
theorem newH_apply (p : Fin 8192) (j : Fin 1024) :
    val_main_v62 (F := Ideal) x0 x1 x2 x3 x4 x5 x6 x7 (ix2 p j) = newH x0 x1 x2 x3 x4 x5 x6 x7 (ix2 p j) := by
  rw [val_main_v62_apply, val_main_v60_apply, val_main_v59_apply, val_main_cst_9_apply, val_main_v58_apply,
    val_main_v57_apply, val_main_cst_8_apply, val_main_v56_apply, val_main_v55_apply, gate3_apply,
    val_main_v61_apply, newC_apply]
  show Ideal.div (Ideal.ofBits .f32 0x3F800000#32) (Ideal.ofBits .f32 0x3F800000#32 + Ideal.exp (-(act (preRow x0 x1 x3 x4 x5 p) x6 x7 3 j)))
      * Ideal.tanh (newC x0 x1 x2 x3 x4 x5 x6 x7 (ix2 p j)) = _
  rw [logistic_form]
  rfl

/-- The reference's new cell matrix is the cell array of Spec.lean. -/
theorem ref_newC : val_main_v54 (F := Ideal) x0 x1 x2 x3 x4 x5 x6 x7 = newC x0 x1 x2 x3 x4 x5 x6 x7 := funext fun i => by
  obtain ⟨p, j, rfl⟩ : ∃ (p : Fin 8192) (j : Fin 1024), i = ix2 p j := ⟨i 0, i 1, eq_ix2 i⟩
  exact newC_apply x0 x1 x2 x3 x4 x5 x6 x7 p j

/-- The reference's new hidden matrix is the hidden array of Spec.lean. -/
theorem ref_newH : val_main_v62 (F := Ideal) x0 x1 x2 x3 x4 x5 x6 x7 = newH x0 x1 x2 x3 x4 x5 x6 x7 := funext fun i => by
  obtain ⟨p, j, rfl⟩ : ∃ (p : Fin 8192) (j : Fin 1024), i = ix2 p j := ⟨i 0, i 1, eq_ix2 i⟩
  exact newH_apply x0 x1 x2 x3 x4 x5 x6 x7 p j

end Cert.LstmRef

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.KernelBlock.lean ====
/-
  One grid point of the kernel, read at one entry of its [256, 1024] output blocks, is the cell of Spec.lean for the
  block's row.

  At a grid point the body holds a block of 256 batch rows of x, h and c and the whole of the two weight matrices, the
  bias, the gains and the offsets. It forms the block's [256, 4096] pre-activations by two matrix products into zero
  accumulators plus the bias row, and for each gate takes the 1024 columns g·1024 … g·1024 + 1023, normalises every row by
  lane sums, and combines the four gates. Entry (r, j) of either output block therefore depends on row r of the three
  batch blocks only, and is the cell of that row.
-/
import proofs.«152445_j65120294142269_2_alg».proof.Proof.Gen.KernelIdeal.Value
import proofs.«152445_j65120294142269_2_alg».proof.Proof.LibMatmulZero
import proofs.«152445_j65120294142269_2_alg».proof.Proof.LibRowOps
import proofs.«152445_j65120294142269_2_alg».proof.Proof.Spec

noncomputable section

open scoped BigOperators

namespace Cert.LstmKernel

open Cert.KernelIdeal Cert.KernelIdeal.Gen Cert.LstmSpec Idealize.ShloMosaic Idealize.ShloMosaic.TcCoe Idealize.ShloMosaic.ValueIdx

/-! ## The pre-activations of a block -/

section Pre
variable (P0 : Vec Ideal S256x512 .f32) (P1 : Vec Ideal S256x1024 .f32) (P2 : Vec Ideal S512x4096 .bf16)
  (P3 : Vec Ideal S1024x4096 .bf16) (P4 : Vec Ideal S1x4096 .f32)

/-- Row r of a block: its pre-activations from the row of x, the row of h, the weights and the bias row. -/
abbrev blockPre (r : Fin 256) : Fin 4096 → EReal :=
  pre (fun k => P0 (ix2 r k)) (fun k => P1 (ix2 r k)) P2 P3 (fun q => P4 (ix2 (0 : Fin 1) q))

/-- The bias row repeated down the 256 rows reads, at (r, q), the bias at q. -/
theorem bias_apply (r : Fin 256) (q : Fin 4096) :
    broadcastTo S256x4096 P4 broadcasts_S1x4096_S256x4096 (ix2 r q) = P4 (ix2 (0 : Fin 1) q) :=
  broadcastTo_apply P4 _ (ix2 r q) (ix2 (0 : Fin 1) q) fun ax => by
    match ax with
    | ⟨0, _⟩ => rfl
    | ⟨1, _⟩ => rfl

/-- The product of the x block with Wi at (r, q): the result's row is the left operand's, its column the right's. -/
theorem xWi_apply (r : Fin 256) (q : Fin 4096) :
    matmul (F := Ideal) (φ₁ := .bf16) (φ₂ := .bf16) dot_S256x512_S512x4096_S256x4096_1_0_0_1_n_n none (truncf .bf16 P0 bitsLt_bf16_f32) P2
        (constant S256x4096 .f32 0x00000000#32) (ix2 r q) = ∑ k : Fin 512, P0 (ix2 r k) * P2 (ix2 k q) :=
  Cert.LibMatmulZero.matmul_zero_ix2 dot_S256x512_S512x4096_S256x4096_1_0_0_1_n_n rfl rfl rfl rfl
    (fun i c => by
      unfold DotDims.lhsIdx
      rw [dif_neg (show ¬(0 : Fin _) ∈ dot_S256x512_S512x4096_S256x4096_1_0_0_1_n_n.lhsBatch by decide),
        dif_pos (show (0 : Fin _) ∈ dot_S256x512_S512x4096_S256x4096_1_0_0_1_n_n.lhsNonContracting by decide)]
      rfl)
    (fun i c => by
      unfold DotDims.rhsIdx
      rw [dif_neg (show ¬(1 : Fin _) ∈ dot_S256x512_S512x4096_S256x4096_1_0_0_1_n_n.rhsBatch by decide),
        dif_pos (show (1 : Fin _) ∈ dot_S256x512_S512x4096_S256x4096_1_0_0_1_n_n.rhsNonContracting by decide)]
      rfl)
    none (truncf .bf16 P0 bitsLt_bf16_f32) P2 r q

/-- The product of the h block with Wh at (r, q). -/
theorem hWh_apply (r : Fin 256) (q : Fin 4096) :
    matmul (F := Ideal) (φ₁ := .bf16) (φ₂ := .bf16) dot_S256x1024_S1024x4096_S256x4096_1_0_0_1_n_n none (truncf .bf16 P1 bitsLt_bf16_f32) P3
        (constant S256x4096 .f32 0x00000000#32) (ix2 r q) = ∑ k : Fin 1024, P1 (ix2 r k) * P3 (ix2 k q) :=
  Cert.LibMatmulZero.matmul_zero_ix2 dot_S256x1024_S1024x4096_S256x4096_1_0_0_1_n_n rfl rfl rfl rfl
    (fun i c => by
      unfold DotDims.lhsIdx
      rw [dif_neg (show ¬(0 : Fin _) ∈ dot_S256x1024_S1024x4096_S256x4096_1_0_0_1_n_n.lhsBatch by decide),
        dif_pos (show (0 : Fin _) ∈ dot_S256x1024_S1024x4096_S256x4096_1_0_0_1_n_n.lhsNonContracting by decide)]
      rfl)
    (fun i c => by
      unfold DotDims.rhsIdx
      rw [dif_neg (show ¬(1 : Fin _) ∈ dot_S256x1024_S1024x4096_S256x4096_1_0_0_1_n_n.rhsBatch by decide),
        dif_pos (show (1 : Fin _) ∈ dot_S256x1024_S1024x4096_S256x4096_1_0_0_1_n_n.rhsNonContracting by decide)]
      rfl)
    none (truncf .bf16 P1 bitsLt_bf16_f32) P3 r q

/-- The block's pre-activation payload at (r, q) is row r's pre-activation at q. -/
theorem gates_apply (r : Fin 256) (q : Fin 4096) :
    k0_pay3 P0 P1 P2 P3 P4 (ix2 r q) = blockPre P0 P1 P2 P3 P4 r q := by
  unfold k0_pay3
  simp only [addf_apply]
  rw [shapeCast_self, shapeCast_self, shapeCast_self, xWi_apply, hWh_apply, bias_apply]
  rfl

end Pre

/-! ## One gate of a block, normalised -/

/-- A lane sum of a [256, 1024] block at row r. -/
theorem lanesum_apply (v : FVec Ideal S256x1024 .f32) (r : Fin 256) :
    multiReduction .add [1] S256 v 0x00000000#32 reduces_S256x1024_S256 (.inl rfl) rfl (ix1 r)
      = ∑ k : Fin 1024, v (ix2 r k) :=
  Cert.LibRowOps.rowAdd_apply v reduces_S256x1024_S256 (.inl rfl) rfl r

/-- The lane sum of the squared deviations of a row from its mean (the mean kept as a column and repeated along the lanes). -/
theorem sqsum_apply (v : FVec Ideal S256x1024 .f32) (r : Fin 256) :
    multiReduction .add [1] S256
        (mulf (subf v (broadcastTo S256x1024 (divf (shapeCast S256x1 (multiReduction .add [1] S256 v 0x00000000#32 reduces_S256x1024_S256 (.inl rfl) rfl) shapeCasts_S256_S256x1) (broadcast S256x1 (Scalar.ofBits .f32 0x44800000#32))) broadcasts_S256x1_S256x1024))
              (subf v (broadcastTo S256x1024 (divf (shapeCast S256x1 (multiReduction .add [1] S256 v 0x00000000#32 reduces_S256x1024_S256 (.inl rfl) rfl) shapeCasts_S256_S256x1) (broadcast S256x1 (Scalar.ofBits .f32 0x44800000#32))) broadcasts_S256x1_S256x1024)))
        0x00000000#32 reduces_S256x1024_S256 (.inl rfl) rfl (ix1 r)
      = ∑ k : Fin 1024, (v (ix2 r k) - mean (fun k => v (ix2 r k))) * (v (ix2 r k) - mean (fun k => v (ix2 r k))) := by
  refine (lanesum_apply _ r).trans (Finset.sum_congr rfl fun k _ => ?_)
  rw [mulf_apply, subf_apply, Cert.LibRowOps.broadcastTo_a1_ab_apply, divf_apply, Cert.LibRowOps.shapeCast_a_a1_apply,
    lanesum_apply, broadcast_apply]
  rfl

/-- The 1024 columns of gate g, taken out of the [256, 4096] pre-activations, read at (r, k). -/
theorem slice_apply (G : FVec Ideal S256x4096 .f32) (off : Nat) (h : S256x4096.Slices ![0, off] S256x1024) (g : Fin 4)
    (hg : off = g.val * 1024) (r : Fin 256) (k : Fin 1024) :
    extractStridedSlice S256x1024 ![0, off] G h (ix2 r k) = G (ix2 r (col g k)) :=
  extractStridedSlice_apply _ G h (ix2 r k) (ix2 r (col g k)) fun a => by
    match a with
    | ⟨0, _⟩ => show r.val = 0 + r.val; omega
    | ⟨1, _⟩ => show g.val * 1024 + k.val = off + k.val; omega

/-- Gate g of a block, normalised and scaled, at (r, j): row r's gate g normalised with row g of the gains and offsets.
    The five indices are named so that the statement meets the block function's own index terms. -/
theorem gate_apply (G : FVec Ideal S256x4096 .f32) (P5 P6 : Vec Ideal S4x1024 .f32) (off : Nat)
    (h : S256x4096.Slices ![0, off] S256x1024) (g : Fin 4) (hg : off = g.val * 1024) (r : Fin 256) (j : Fin 1024)
    (i0 : S256x4096.Idx) (i1 i2 : S256.Idx) (i3 i4 : S4x1024.Idx)
    (h0 : i0 = ix2 r (col g j)) (h1 : i1 = ix1 r) (h2 : i2 = ix1 r) (h3 : i3 = ix2 g j) (h4 : i4 = ix2 g j) :
    FloatOps.addf (FloatOps.mulf (FloatOps.mulf (FloatOps.subf (G i0)
        (FloatOps.divf ((multiReduction .add [1] S256 (extractStridedSlice S256x1024 ![0, off] G h) 0x00000000#32 reduces_S256x1024_S256 (.inl rfl) rfl) i1) (Scalar.ofBits .f32 0x44800000#32)))
        (FloatOps.rsqrt (FloatOps.addf (FloatOps.divf ((multiReduction .add [1] S256
          (mulf (subf (extractStridedSlice S256x1024 ![0, off] G h) (broadcastTo S256x1024 (divf (shapeCast S256x1 (multiReduction .add [1] S256 (extractStridedSlice S256x1024 ![0, off] G h) 0x00000000#32 reduces_S256x1024_S256 (.inl rfl) rfl) shapeCasts_S256_S256x1) (broadcast S256x1 (Scalar.ofBits .f32 0x44800000#32))) broadcasts_S256x1_S256x1024))
                (subf (extractStridedSlice S256x1024 ![0, off] G h) (broadcastTo S256x1024 (divf (shapeCast S256x1 (multiReduction .add [1] S256 (extractStridedSlice S256x1024 ![0, off] G h) 0x00000000#32 reduces_S256x1024_S256 (.inl rfl) rfl) shapeCasts_S256_S256x1) (broadcast S256x1 (Scalar.ofBits .f32 0x44800000#32))) broadcasts_S256x1_S256x1024)))
          0x00000000#32 reduces_S256x1024_S256 (.inl rfl) rfl) i2) (Scalar.ofBits .f32 0x44800000#32)) (Scalar.ofBits .f32 0x3727C5AC#32))))
        (P5 i3)) (P6 i4)
      = act (fun q => G (ix2 r q)) P5 P6 g j := by
  subst h0 h1 h2 h3 h4
  rw [lanesum_apply, sqsum_apply]
  simp only [slice_apply G off h g hg]
  rfl

/-! ## The two output blocks at one entry -/

/-- A one-dimensional index is the index of its coordinate. -/
theorem idx1_eq {n : Nat} (f : (⟨1, ![n]⟩ : Shape).Idx) (a : Fin n) (h0 : (f 0).val = a.val) : f = ix1 a :=
  funext fun d => Fin.ext (by match d with | ⟨0, _⟩ => exact h0)

/-- A two-dimensional index is the index of its two coordinates. -/
theorem idx2_eq {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

section Blocks
variable (P0 : Vec Ideal S256x512 .f32) (P1 : Vec Ideal S256x1024 .f32) (P2 : Vec Ideal S512x4096 .bf16)
  (P3 : Vec Ideal S1024x4096 .bf16) (P4 : Vec Ideal S1x4096 .f32) (P5 P6 : Vec Ideal S4x1024 .f32)
  (P7 : Vec Ideal S256x1024 .f32)

open Cert.KernelIdeal.Value in
/-- The new-cell block at (r, j) is the cell of the block's row r at column j. -/
theorem cell_apply (r : Fin 256) (j : Fin 1024) :
    E9 P0 P1 P2 P3 P4 P5 P6 P7 (ix2 r j) = cellC (blockPre P0 P1 P2 P3 P4 r) P5 P6 (P7 (ix2 r j)) j := by
  have eG : (fun q => k0_pay3 P0 P1 P2 P3 P4 (ix2 r q)) = blockPre P0 P1 P2 P3 P4 r :=
    funext fun q => gates_apply P0 P1 P2 P3 P4 r q
  have e0 : ix9_0 (ix2 r j) = ix2 r (col 1 j) := idx2_eq _ _ _ rfl (Nat.add_comm _ _)
  have e1 : ix9_1 (ix2 r j) = ix1 r := idx1_eq _ _ rfl
  have e2 : ix9_2 (ix2 r j) = ix1 r := idx1_eq _ _ rfl
  have e3 : ix9_3 (ix2 r j) = ix2 (1 : Fin 4) j := idx2_eq _ _ _ rfl rfl
  have e4 : ix9_4 (ix2 r j) = ix2 (1 : Fin 4) j := idx2_eq _ _ _ rfl rfl
  have e5 : ix9_5 (ix2 r j) = ix2 r j := idx2_eq _ _ _ rfl rfl
  have e6 : ix9_6 (ix2 r j) = ix2 r (col 0 j) := idx2_eq _ _ _ rfl (Nat.zero_add _).symm
  have e7 : ix9_7 (ix2 r j) = ix1 r := idx1_eq _ _ rfl
  have e8 : ix9_8 (ix2 r j) = ix1 r := idx1_eq _ _ rfl
  have e9 : ix9_9 (ix2 r j) = ix2 (0 : Fin 4) j := idx2_eq _ _ _ rfl rfl
  have e10 : ix9_10 (ix2 r j) = ix2 (0 : Fin 4) j := idx2_eq _ _ _ rfl rfl
  have e11 : ix9_11 (ix2 r j) = ix2 r (col 2 j) := idx2_eq _ _ _ rfl (Nat.add_comm _ _)
  have e12 : ix9_12 (ix2 r j) = ix1 r := idx1_eq _ _ rfl
  have e13 : ix9_13 (ix2 r j) = ix1 r := idx1_eq _ _ rfl
  have e14 : ix9_14 (ix2 r j) = ix2 (2 : Fin 4) j := idx2_eq _ _ _ rfl rfl
  have e15 : ix9_15 (ix2 r j) = ix2 (2 : Fin 4) j := idx2_eq _ _ _ rfl rfl
  dsimp only [E9]
  rw [gate_apply (k0_pay3 P0 P1 P2 P3 P4) P5 P6 1024 slices_S256x4096_o0_1024_S256x1024 1 rfl r j _ _ _ _ _ e0 e1 e2 e3 e4,
    gate_apply (k0_pay3 P0 P1 P2 P3 P4) P5 P6 0 slices_S256x4096_o0_0_S256x1024 0 rfl r j _ _ _ _ _ e6 e7 e8 e9 e10,
    gate_apply (k0_pay3 P0 P1 P2 P3 P4) P5 P6 2048 slices_S256x4096_o0_2048_S256x1024 2 rfl r j _ _ _ _ _ e11 e12 e13 e14 e15,
    e5, eG]
  rfl

open Cert.KernelIdeal.Value in
/-- The new-hidden block at (r, j) is the hidden value of the block's row r at column j. -/
theorem hidden_apply (r : Fin 256) (j : Fin 1024) :
    E8 P0 P1 P2 P3 P4 P5 P6 P7 (ix2 r j) = cellH (blockPre P0 P1 P2 P3 P4 r) P5 P6 (P7 (ix2 r j)) j := by
  have eG : (fun q => k0_pay3 P0 P1 P2 P3 P4 (ix2 r q)) = blockPre P0 P1 P2 P3 P4 r :=
    funext fun q => gates_apply P0 P1 P2 P3 P4 r q
  have e0 : ix8_0 (ix2 r j) = ix2 r (col 3 j) := idx2_eq _ _ _ rfl (Nat.add_comm _ _)
  have e1 : ix8_1 (ix2 r j) = ix1 r := idx1_eq _ _ rfl
  have e2 : ix8_2 (ix2 r j) = ix1 r := idx1_eq _ _ rfl
  have e3 : ix8_3 (ix2 r j) = ix2 (3 : Fin 4) j := idx2_eq _ _ _ rfl rfl
  have e4 : ix8_4 (ix2 r j) = ix2 (3 : Fin 4) j := idx2_eq _ _ _ rfl rfl
  have e5 : ix8_5 (ix2 r j) = ix2 r (col 1 j) := idx2_eq _ _ _ rfl (Nat.add_comm _ _)
  have e6 : ix8_6 (ix2 r j) = ix1 r := idx1_eq _ _ rfl
  have e7 : ix8_7 (ix2 r j) = ix1 r := idx1_eq _ _ rfl
  have e8 : ix8_8 (ix2 r j) = ix2 (1 : Fin 4) j := idx2_eq _ _ _ rfl rfl
  have e9 : ix8_9 (ix2 r j) = ix2 (1 : Fin 4) j := idx2_eq _ _ _ rfl rfl
  have e10 : ix8_10 (ix2 r j) = ix2 r j := idx2_eq _ _ _ rfl rfl
  have e11 : ix8_11 (ix2 r j) = ix2 r (col 0 j) := idx2_eq _ _ _ rfl (Nat.zero_add _).symm
  have e12 : ix8_12 (ix2 r j) = ix1 r := idx1_eq _ _ rfl
  have e13 : ix8_13 (ix2 r j) = ix1 r := idx1_eq _ _ rfl
  have e14 : ix8_14 (ix2 r j) = ix2 (0 : Fin 4) j := idx2_eq _ _ _ rfl rfl
  have e15 : ix8_15 (ix2 r j) = ix2 (0 : Fin 4) j := idx2_eq _ _ _ rfl rfl
  have e16 : ix8_16 (ix2 r j) = ix2 r (col 2 j) := idx2_eq _ _ _ rfl (Nat.add_comm _ _)
  have e17 : ix8_17 (ix2 r j) = ix1 r := idx1_eq _ _ rfl
  have e18 : ix8_18 (ix2 r j) = ix1 r := idx1_eq _ _ rfl
  have e19 : ix8_19 (ix2 r j) = ix2 (2 : Fin 4) j := idx2_eq _ _ _ rfl rfl
  have e20 : ix8_20 (ix2 r j) = ix2 (2 : Fin 4) j := idx2_eq _ _ _ rfl rfl
  dsimp only [E8]
  rw [gate_apply (k0_pay3 P0 P1 P2 P3 P4) P5 P6 3072 slices_S256x4096_o0_3072_S256x1024 3 rfl r j _ _ _ _ _ e0 e1 e2 e3 e4,
    gate_apply (k0_pay3 P0 P1 P2 P3 P4) P5 P6 1024 slices_S256x4096_o0_1024_S256x1024 1 rfl r j _ _ _ _ _ e5 e6 e7 e8 e9,
    gate_apply (k0_pay3 P0 P1 P2 P3 P4) P5 P6 0 slices_S256x4096_o0_0_S256x1024 0 rfl r j _ _ _ _ _ e11 e12 e13 e14 e15,
    gate_apply (k0_pay3 P0 P1 P2 P3 P4) P5 P6 2048 slices_S256x4096_o0_2048_S256x1024 2 rfl r j _ _ _ _ _ e16 e17 e18 e19 e20,
    e10, eG]
  rfl

open Cert.KernelIdeal.Value in
/-- What the body leaves in the new-hidden block, at any entry: the hidden value of the entry's row. -/
theorem hidden_block (y : S256x1024.Idx) :
    View.canon ([⟨r0_1, k0_pay2 (k0_pay3 P0 P1 P2 P3 P4) P5 P6 (k0_pay7 (k0_pay4 P5) (k0_pay5 P6) (k0_pay6 P0 P1 P2 P3 P4)) (k0_pay8 (k0_pay3 P0 P1 P2 P3 P4) P5 P6) (k0_pay9 P5) (k0_pay10 P6) (k0_pay11 (k0_pay3 P0 P1 P2 P3 P4)) P7⟩] : List (View.Piece (Elt Ideal) S256x1024 .f32)) y
      = cellH (blockPre P0 P1 P2 P3 P4 (y 0)) P5 P6 (P7 (ix2 (y 0) (y 1))) (y 1) := by
  refine (canon8_eq P0 P1 P2 P3 P4 P5 P6 P7 y).trans ?_
  obtain ⟨r, j, rfl⟩ : ∃ (r : Fin 256) (j : Fin 1024), y = ix2 r j := ⟨y 0, y 1, eq_ix2 y⟩
  exact hidden_apply P0 P1 P2 P3 P4 P5 P6 P7 r j

open Cert.KernelIdeal.Value in
/-- What the body leaves in the new-cell block, at any entry: the cell value of the entry's row. -/
theorem cell_block (y : S256x1024.Idx) :
    View.canon ([⟨r0_1, k0_pay1 (k0_pay7 (k0_pay4 P5) (k0_pay5 P6) (k0_pay6 P0 P1 P2 P3 P4)) (k0_pay8 (k0_pay3 P0 P1 P2 P3 P4) P5 P6) (k0_pay9 P5) (k0_pay10 P6) (k0_pay11 (k0_pay3 P0 P1 P2 P3 P4)) P7⟩] : List (View.Piece (Elt Ideal) S256x1024 .f32)) y
      = cellC (blockPre P0 P1 P2 P3 P4 (y 0)) P5 P6 (P7 (ix2 (y 0) (y 1))) (y 1) := by
  refine (canon9_eq P0 P1 P2 P3 P4 P5 P6 P7 y).trans ?_
  obtain ⟨r, j, rfl⟩ : ∃ (r : Fin 256) (j : Fin 1024), y = ix2 r j := ⟨y 0, y 1, eq_ix2 y⟩
  exact cell_apply P0 P1 P2 P3 P4 P5 P6 P7 r j

end Blocks

end Cert.LstmKernel

end
-- ==== Proof.KernelArray.lean ====
/-
  From the blocks to the whole arrays: after the run the kernel's two result arrays are the cell arrays of Spec.lean.

  The grid has 32 points; point t holds rows 256·t … 256·t + 255 of x, h and c (block index (t, 0)) and the whole of the
  two weight matrices, the bias row, the gains and the offsets (block index (0, 0)), and writes back rows
  256·t … 256·t + 255 of the two results. So what point t writes back is block t of the cell arrays, the 32 blocks
  cover the [8192, 1024] results, and each result array ends as the cell array. Before the region the host only
  changes the weights' format (the identity on extended reals) and lays the bias out as one row.
-/
import proofs.«152445_j65120294142269_2_alg».proof.Proof.KernelBlock

noncomputable section

open scoped BigOperators

namespace Cert.LstmKernel

open Cert.KernelIdeal Cert.KernelIdeal.Gen Cert.LstmSpec Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The block indices of the ten windows at grid point t, decided over the 32 points: the three batch operands and the
    two results move down with t, the other five stay. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The batch row that row r of grid point t's blocks is. -/
def batchRow (t : Fin cfg0.N) (r : Fin 256) : Fin 8192 :=
  ⟨t.val * 256 + r.val, by have := t.isLt; have hN : cfg0.N = 32 := N_0; have := r.isLt; omega⟩

/-! ## The arrays the region finds -/

/-- The bias as the region finds it, one row of 4096, read back as a vector. -/
abbrev biasVec (c : Dev nD) : (⟨1, ![4096]⟩ : Shape).Idx → EReal := fun i => V m c main_v2 (ix2 (0 : Fin 1) (i 0))

/-- The new-hidden array of the arrays the region finds. -/
abbrev foundH (c : Dev nD) : S8192x1024.Idx → EReal :=
  newH (V m c main_arg0) (V m c main_arg1) (V m c main_arg2) (V m c main_v0) (V m c main_v1) (biasVec m c) (V m c main_arg6) (V m c main_arg7)

/-- The new-cell array of the arrays the region finds. -/
abbrev foundC (c : Dev nD) : S8192x1024.Idx → EReal :=
  newC (V m c main_arg0) (V m c main_arg1) (V m c main_arg2) (V m c main_v0) (V m c main_v1) (biasVec m c) (V m c main_arg6) (V m c main_arg7)

/-! ## The blocks of the input windows -/

theorem x_row (c : Dev nD) (t : Fin cfg0.N) (r : Fin 256) (k : Fin 512) :
    iblk m c 0 t (ix2 r k) = V m c main_arg0 (ix2 (batchRow t r) k) := by
  obtain ⟨e0, e1, -⟩ := block_index t
  show V m c main_arg0 (((cfg0.win 0).blk t).view.emb (ix2 r k)) = _
  refine congrArg _ (funext fun a => Fin.ext ?_)
  match a with
  | ⟨0, _⟩ => show win0_0.index t (0 : Fin 2) * 256 + 1 * r.val = t.val * 256 + r.val; rw [e0]; omega
  | ⟨1, _⟩ => show win0_0.index t (1 : Fin 2) * 512 + 1 * k.val = k.val; rw [e1]; omega

theorem h_row (c : Dev nD) (t : Fin cfg0.N) (r : Fin 256) (k : Fin 1024) :
    iblk m c 1 t (ix2 r k) = V m c main_arg1 (ix2 (batchRow t r) k) := by
  obtain ⟨-, -, e0, e1, -⟩ := block_index t
  show V m c main_arg1 (((cfg0.win 1).blk t).view.emb (ix2 r k)) = _
  refine congrArg _ (funext fun a => Fin.ext ?_)
  match a with
  | ⟨0, _⟩ => show win0_1.index t (0 : Fin 2) * 256 + 1 * r.val = t.val * 256 + r.val; rw [e0]; omega
  | ⟨1, _⟩ => show win0_1.index t (1 : Fin 2) * 1024 + 1 * k.val = k.val; rw [e1]; omega

theorem c_row (c : Dev nD) (t : Fin cfg0.N) (r : Fin 256) (k : Fin 1024) :
    iblk m c 2 t (ix2 r k) = V m c main_arg2 (ix2 (batchRow t r) k) := by
  obtain ⟨-, -, -, -, e0, e1, -⟩ := block_index t
  show V m c main_arg2 (((cfg0.win 2).blk t).view.emb (ix2 r k)) = _
  refine congrArg _ (funext fun a => Fin.ext ?_)
  match a with
  | ⟨0, _⟩ => show win0_2.index t (0 : Fin 2) * 256 + 1 * r.val = t.val * 256 + r.val; rw [e0]; omega
  | ⟨1, _⟩ => show win0_2.index t (1 : Fin 2) * 1024 + 1 * k.val = k.val; rw [e1]; omega

/-- The five operands held whole: their one block is the array. -/
theorem Wi_whole (c : Dev nD) (t : Fin cfg0.N) (y : S512x4096.Idx) : iblk m c 3 t y = V m c main_v0 y := by
  obtain ⟨-, -, -, -, -, -, e0, e1, -⟩ := block_index t
  show V m c main_v0 (((cfg0.win 3).blk t).view.emb y) = _
  refine congrArg _ (funext fun a => Fin.ext ?_)
  match a with
  | ⟨0, _⟩ => show win0_3.index t (0 : Fin 2) * 512 + 1 * (y 0).val = (y 0).val; rw [e0]; omega
  | ⟨1, _⟩ => show win0_3.index t (1 : Fin 2) * 4096 + 1 * (y 1).val = (y 1).val; rw [e1]; omega

theorem Wh_whole (c : Dev nD) (t : Fin cfg0.N) (y : S1024x4096.Idx) : iblk m c 4 t y = V m c main_v1 y := by
  obtain ⟨-, -, -, -, -, -, -, -, e0, e1, -⟩ := block_index t
  show V m c main_v1 (((cfg0.win 4).blk t).view.emb y) = _
  refine congrArg _ (funext fun a => Fin.ext ?_)
  match a with
  | ⟨0, _⟩ => show win0_4.index t (0 : Fin 2) * 1024 + 1 * (y 0).val = (y 0).val; rw [e0]; omega
  | ⟨1, _⟩ => show win0_4.index t (1 : Fin 2) * 4096 + 1 * (y 1).val = (y 1).val; rw [e1]; omega

theorem bias_whole (c : Dev nD) (t : Fin cfg0.N) (y : S1x4096.Idx) : iblk m c 5 t y = V m c main_v2 y := by
  obtain ⟨-, -, -, -, -, -, -, -, -, -, e0, e1, -⟩ := block_index t
  show V m c main_v2 (((cfg0.win 5).blk t).view.emb y) = _
  refine congrArg _ (funext fun a => Fin.ext ?_)
  match a with
  | ⟨0, _⟩ => show win0_5.index t (0 : Fin 2) * 1 + 1 * (y 0).val = (y 0).val; rw [e0]; omega
  | ⟨1, _⟩ => show win0_5.index t (1 : Fin 2) * 4096 + 1 * (y 1).val = (y 1).val; rw [e1]; omega

theorem gain_whole (c : Dev nD) (t : Fin cfg0.N) (y : S4x1024.Idx) : iblk m c 6 t y = V m c main_arg6 y := by
  obtain ⟨-, -, -, -, -, -, -, -, -, -, -, -, e0, e1, -⟩ := block_index t
  show V m c main_arg6 (((cfg0.win 6).blk t).view.emb y) = _
  refine congrArg _ (funext fun a => Fin.ext ?_)
  match a with
  | ⟨0, _⟩ => show win0_6.index t (0 : Fin 2) * 4 + 1 * (y 0).val = (y 0).val; rw [e0]; omega
  | ⟨1, _⟩ => show win0_6.index t (1 : Fin 2) * 1024 + 1 * (y 1).val = (y 1).val; rw [e1]; omega

theorem offset_whole (c : Dev nD) (t : Fin cfg0.N) (y : S4x1024.Idx) : iblk m c 7 t y = V m c main_arg7 y := by
  obtain ⟨-, -, -, -, -, -, -, -, -, -, -, -, -, -, e0, e1, -⟩ := block_index t
  show V m c main_arg7 (((cfg0.win 7).blk t).view.emb y) = _
  refine congrArg _ (funext fun a => Fin.ext ?_)
  match a with
  | ⟨0, _⟩ => show win0_7.index t (0 : Fin 2) * 4 + 1 * (y 0).val = (y 0).val; rw [e0]; omega
  | ⟨1, _⟩ => show win0_7.index t (1 : Fin 2) * 1024 + 1 * (y 1).val = (y 1).val; rw [e1]; omega

/-- Row r of point t's block is batch row 256·t + r: its pre-activations are that batch row's. -/
theorem pre_row (c : Dev nD) (t : Fin cfg0.N) (r : Fin 256) :
    blockPre (iblk m c 0 t) (iblk m c 1 t) (iblk m c 3 t) (iblk m c 4 t) (iblk m c 5 t) r
      = preRow (V m c main_arg0) (V m c main_arg1) (V m c main_v0) (V m c main_v1) (biasVec m c) (batchRow t r) := by
  funext q
  show pre _ _ _ _ _ q = pre _ _ _ _ _ q
  unfold pre
  simp only [x_row, h_row, Wi_whole, Wh_whole, bias_whole]

/-! ## What a point writes back, and the arrays after the run -/

/-- The cell values do not change when each argument is replaced by an equal one. -/
theorem cellH_congr {p p' : Fin 4096 → EReal} {g g' b b' : (⟨2, ![4, 1024]⟩ : Shape).Idx → EReal} {x x' : EReal} (j : Fin 1024)
    (h1 : p = p') (h2 : g = g') (h3 : b = b') (h4 : x = x') : cellH p g b x j = cellH p' g' b' x' j := by
  subst h1 h2 h3 h4; rfl
theorem cellC_congr {p p' : Fin 4096 → EReal} {g g' b b' : (⟨2, ![4, 1024]⟩ : Shape).Idx → EReal} {x x' : EReal} (j : Fin 1024)
    (h1 : p = p') (h2 : g = g') (h3 : b = b') (h4 : x = x') : cellC p g b x j = cellC p' g' b' x' j := by
  subst h1 h2 h3 h4; rfl

/-- Entry y of point t's result block is entry (256·t + y₀, y₁) of the result array. -/
theorem out_entry8 (t : Fin cfg0.N) (y : S256x1024.Idx) :
    ((cfg0.win 8).blk t).view.emb y = ix2 (batchRow t (y 0)) (y 1) := by
  obtain ⟨-, -, -, -, -, -, -, -, -, -, -, -, -, -, -, -, e0, e1, -⟩ := block_index t
  refine funext fun a => Fin.ext ?_
  match a with
  | ⟨0, _⟩ => show win0_8.index t (0 : Fin 2) * 256 + 1 * (y 0).val = t.val * 256 + (y 0).val; rw [e0]; omega
  | ⟨1, _⟩ => show win0_8.index t (1 : Fin 2) * 1024 + 1 * (y 1).val = (y 1).val; rw [e1]; omega
theorem out_entry9 (t : Fin cfg0.N) (y : S256x1024.Idx) :
    ((cfg0.win 9).blk t).view.emb y = ix2 (batchRow t (y 0)) (y 1) := by
  obtain ⟨-, -, -, -, -, -, -, -, -, -, -, -, -, -, -, -, -, -, e0, e1⟩ := block_index t
  refine funext fun a => Fin.ext ?_
  match a with
  | ⟨0, _⟩ => show win0_9.index t (0 : Fin 2) * 256 + 1 * (y 0).val = t.val * 256 + (y 0).val; rw [e0]; omega
  | ⟨1, _⟩ => show win0_9.index t (1 : Fin 2) * 1024 + 1 * (y 1).val = (y 1).val; rw [e1]; omega

/-- What point t writes back to the new-hidden array is block t of the cell's hidden array. -/
theorem flushedH (c : Dev nD) (t : Fin cfg0.N) :
    (dats m 0 c).flushed 8 t = ((cfg0.win 8).blk t).view.read (Elt Ideal) (foundH m c) := by
  rw [Cert.KernelIdeal.Value.flushed8]
  unfold out0_8
  simp only [View.ld_unit_zero (S := S256x512) zero_off, View.ld_unit_zero (S := S256x1024) zero_off,
    View.ld_unit_zero (S := S512x4096) zero_off, View.ld_unit_zero (S := S1024x4096) zero_off,
    View.ld_unit_zero (S := S1x4096) zero_off, View.ld_unit_zero (S := S4x1024) zero_off]
  funext y
  refine (hidden_block (iblk m c 0 t) (iblk m c 1 t) (iblk m c 3 t) (iblk m c 4 t) (iblk m c 5 t) (iblk m c 6 t)
    (iblk m c 7 t) (iblk m c 2 t) y).trans ?_
  show _ = foundH m c (((cfg0.win 8).blk t).view.emb y)
  rw [out_entry8]
  exact cellH_congr (y 1) (pre_row m c t (y 0)) (funext (gain_whole m c t)) (funext (offset_whole m c t)) (c_row m c t (y 0) (y 1))

/-- What point t writes back to the new-cell array is block t of the cell's cell array. -/
theorem flushedC (c : Dev nD) (t : Fin cfg0.N) :
    (dats m 0 c).flushed 9 t = ((cfg0.win 9).blk t).view.read (Elt Ideal) (foundC m c) := by
  rw [Cert.KernelIdeal.Value.flushed9]
  unfold out0_9
  simp only [View.ld_unit_zero (S := S256x512) zero_off, View.ld_unit_zero (S := S256x1024) zero_off,
    View.ld_unit_zero (S := S512x4096) zero_off, View.ld_unit_zero (S := S1024x4096) zero_off,
    View.ld_unit_zero (S := S1x4096) zero_off, View.ld_unit_zero (S := S4x1024) zero_off]
  funext y
  refine (cell_block (iblk m c 0 t) (iblk m c 1 t) (iblk m c 3 t) (iblk m c 4 t) (iblk m c 5 t) (iblk m c 6 t)
    (iblk m c 7 t) (iblk m c 2 t) y).trans ?_
  show _ = foundC m c (((cfg0.win 9).blk t).view.emb y)
  rw [out_entry9]
  exact cellC_congr (y 1) (pre_row m c t (y 0)) (funext (gain_whole m c t)) (funext (offset_whole m c t)) (c_row m c t (y 0) (y 1))

/-- An index of a result array is in point t's block iff each coordinate is in the block's range on its axis. -/
theorem mem_block8 (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v3_0).slice (win0_8.rect t)).set ↔ _
  rw [View.set_slice_whole, Rect.mem_set_unit]
  exact Iff.rfl
theorem mem_block9 (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v3_1).slice (win0_9.rect t)).set ↔ _
  rw [View.set_slice_whole, Rect.mem_set_unit]
  exact Iff.rfl

/-- Row p of a result array lies in the block of point p / 256: the 32 blocks cover the array. -/
theorem covered8 (i : S8192x1024.Idx) : ∃ t : Fin cfg0.N, (cfg0.win 8).flush t = true ∧ i ∈ ((cfg0.win 8).blk t).view.set := by
  have h0 : (i 0).val < 8192 := (i 0).isLt
  have h1 : (i 1).val < 1024 := (i 1).isLt
  have hN : cfg0.N = 32 := N_0
  obtain ⟨t, ht⟩ : ∃ t : Fin cfg0.N, t.val = (i 0).val / 256 := ⟨⟨(i 0).val / 256, by omega⟩, rfl⟩
  obtain ⟨-, -, -, -, -, -, -, -, -, -, -, -, -, -, -, -, e0, e1, -⟩ := block_index t
  refine ⟨t, flush0_8 t, ?_⟩
  rw [mem_block8]
  intro a
  match a with
  | ⟨0, _⟩ => show win0_8.index t (0 : Fin 2) * 256 ≤ (i 0).val ∧ (i 0).val < win0_8.index t (0 : Fin 2) * 256 + 256; rw [e0]; omega
  | ⟨1, _⟩ => show win0_8.index t (1 : Fin 2) * 1024 ≤ (i 1).val ∧ (i 1).val < win0_8.index t (1 : Fin 2) * 1024 + 1024; rw [e1]; omega
theorem covered9 (i : S8192x1024.Idx) : ∃ t : Fin cfg0.N, (cfg0.win 9).flush t = true ∧ i ∈ ((cfg0.win 9).blk t).view.set := by
  have h0 : (i 0).val < 8192 := (i 0).isLt
  have h1 : (i 1).val < 1024 := (i 1).isLt
  have hN : cfg0.N = 32 := N_0
  obtain ⟨t, ht⟩ : ∃ t : Fin cfg0.N, t.val = (i 0).val / 256 := ⟨⟨(i 0).val / 256, by omega⟩, rfl⟩
  obtain ⟨-, -, -, -, -, -, -, -, -, -, -, -, -, -, -, -, -, -, e0, e1⟩ := block_index t
  refine ⟨t, flush0_9 t, ?_⟩
  rw [mem_block9]
  intro a
  match a with
  | ⟨0, _⟩ => show win0_9.index t (0 : Fin 2) * 256 ≤ (i 0).val ∧ (i 0).val < win0_9.index t (0 : Fin 2) * 256 + 256; rw [e0]; omega
  | ⟨1, _⟩ => show win0_9.index t (1 : Fin 2) * 1024 ≤ (i 1).val ∧ (i 1).val < win0_9.index t (1 : Fin 2) * 1024 + 1024; rw [e1]; omega

/-- The new-hidden array after the run. -/
theorem finalH (c : Dev nD) : (dats m 0 c).arrAt 8 cfg0.N = foundH m c :=
  (dats m 0 c).arrAt_eq_of_cover 8 (foundH m c) (fun t _ => flushedH m c t) covered8
/-- The new-cell array after the run. -/
theorem finalC (c : Dev nD) : (dats m 0 c).arrAt 9 cfg0.N = foundC m c :=
  (dats m 0 c).arrAt_eq_of_cover 9 (foundC m c) (fun t _ => flushedC m c t) covered9

/-! ## The arrays the region finds are the arguments -/

/-- The first weight matrix as the region finds it: the argument, its format changed (the identity on extended reals). -/
theorem found_Wi (c : Dev nD) :
    (V m c main_v0 : S512x4096.Idx → EReal) = (m ((c : Thread nD τ).loc main_arg3) : S512x4096.Idx → EReal) := by
  dsimp only [V, hostOps0]; after_results; rfl

/-- The second weight matrix likewise. -/
theorem found_Wh (c : Dev nD) :
    (V m c main_v1 : S1024x4096.Idx → EReal) = (m ((c : Thread nD τ).loc main_arg4) : S1024x4096.Idx → EReal) := by
  dsimp only [V, hostOps0]; after_results; rfl

/-- The bias row as the region finds it, read back as a vector, is the bias argument. -/
theorem found_bias (c : Dev nD) : biasVec m c = (m ((c : Thread nD τ).loc main_arg5) : S4096.Idx → EReal) := by
  have e : (V m c main_v2 : S1x4096.Idx → EReal)
      = shapeCast S1x4096 (m ((c : Thread nD τ).loc main_arg5) : S4096.Idx → EReal) shapeCasts_S4096_S1x4096 := by
    dsimp only [V, hostOps0]; after_results; rfl
  funext i
  show V m c main_v2 (ix2 (0 : Fin 1) (i 0)) = _
  rw [e]
  refine shapeCast_apply _ _ (ix2 (0 : Fin 1) (i 0)) i ?_
  rw [Shape.rowMajor_val_one, Shape.rowMajor_val_two]
  show (i 0).val = 0 * 4096 + (i 0).val
  omega

/-- The cell's hidden array of the arrays the region finds is that of the arguments. -/
theorem foundH_eq (c : Dev nD) : foundH m c
    = newH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  show newH (V m c main_arg0) (V m c main_arg1) (V m c main_arg2) (V m c main_v0) (V m c main_v1) (biasVec m c) (V m c main_arg6) (V m c main_arg7) = _
  rw [found_bias, found_Wi, found_Wh, V_main_arg0, V_main_arg1, V_main_arg2, V_main_arg6, V_main_arg7]

/-- The cell's cell array of the arrays the region finds is that of the arguments. -/
theorem foundC_eq (c : Dev nD) : foundC m c
    = newC (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  show newC (V m c main_arg0) (V m c main_arg1) (V m c main_arg2) (V m c main_v0) (V m c main_v1) (biasVec m c) (V m c main_arg6) (V m c main_arg7) = _
  rw [found_bias, found_Wi, found_Wh, V_main_arg0, V_main_arg1, V_main_arg2, V_main_arg6, V_main_arg7]

/-! ## The run -/

/-- Every weakly fair execution of the kernel's program ends with the two result arrays at the cell arrays of the
    arguments, and the arguments unchanged. -/
theorem run : θ_run defs (onTc (τ := τ) (main (F := Ideal))) ⟨m, fun _ => 0, ρ⟩ fun r => ∀ c : Dev nD,
      r.2.mem ((c : Thread nD τ).loc main_v3_0)
        = newH (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_v3_1)
        = newC (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((finalH m c).trans (foundH_eq m c)),
      (h c).2.1.trans ((finalC m c).trans (foundC_eq m c)), (h c).2.2⟩)
    (Cert.KernelIdeal.Value.run_blocks m ρ)

end Cert.LstmKernel

end
-- ==== Proof.lean ====
/-
  The claim of this certificate: a Pallas kernel for one step of a layer-normalised LSTM cell against its jnp reference.

  Both programs compute, for each of 8192 batch rows, the four gates' pre-activations x·Wi + h·Wh + bh (4·1024
  columns), normalise each gate's 1024 numbers by their own mean and variance, scale and shift them by that gate's row
  of gains and offsets, and combine them into the new cell and hidden rows (Proof/Spec.lean). The kernel does this 256
  rows at a time over a grid of 32 points, with the weights held as bf16 (a change of format, the identity on the
  extended reals) and the gates taken as column ranges of the [256, 4096] product; the reference does it for all rows at
  once through a [8192, 4, 1024] view and writes the logistic function as 1 / (1 + exp(−y)). On the extended reals the two
  are the same composition of exact operations entry by entry, so no algebraic law and no finiteness of the inputs is used:
  Proof/RefCell.lean reads the reference stage by stage, Proof/KernelBlock.lean reads one grid point's two output
  blocks at an entry, and Proof/KernelArray.lean puts the 32 blocks together into the result arrays after the run.
  The three frames are the generated runs; the ideal pass rewrote nothing, so the idealization conjunct is trivial.
-/
import proofs.«152445_j65120294142269_2_alg».proof.Defs
import proofs.«152445_j65120294142269_2_alg».proof.Proof.Gen.Kernel
import proofs.«152445_j65120294142269_2_alg».proof.Proof.Gen.Kernel.Skeleton
import proofs.«152445_j65120294142269_2_alg».proof.Proof.Gen.Kernel.Launch
import proofs.«152445_j65120294142269_2_alg».proof.Proof.Gen.Kernel.Points
import proofs.«152445_j65120294142269_2_alg».proof.Proof.Gen.Kernel.Frame
import proofs.«152445_j65120294142269_2_alg».proof.Proof.Gen.KernelIdeal
import proofs.«152445_j65120294142269_2_alg».proof.Proof.Gen.KernelIdeal.Skeleton
import proofs.«152445_j65120294142269_2_alg».proof.Proof.Gen.KernelIdeal.Launch
import proofs.«152445_j65120294142269_2_alg».proof.Proof.Gen.KernelIdeal.Points
import proofs.«152445_j65120294142269_2_alg».proof.Proof.Gen.KernelIdeal.Frame
import proofs.«152445_j65120294142269_2_alg».proof.Proof.Gen.ReferenceIdeal
import proofs.«152445_j65120294142269_2_alg».proof.Proof.Gen.Pre_finite_inputs
import proofs.«152445_j65120294142269_2_alg».proof.Proof.Gen.KernelIdeal.Value
import proofs.«152445_j65120294142269_2_alg».proof.Proof.Gen.ReferenceIdeal.Run
import proofs.«152445_j65120294142269_2_alg».proof.Proof.Gen.ReferenceIdeal.Read
import proofs.«152445_j65120294142269_2_alg».proof.Proof.RefCell
import proofs.«152445_j65120294142269_2_alg».proof.Proof.KernelArray
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts,
  -- the two kernels' frames: the generated frame certificates
  fun m ρ _ => Cert.Kernel.Gen.frame m ρ,
  fun m ρ _ => Cert.KernelIdeal.Gen.frame m ρ,
  -- the reference's frame: its generated run, the results dropped
  fun m ρ _ => (θ_run Cert.ReferenceIdeal.defs _ _).mono (fun _ h c => (h c).2.2)
    (Cert.ReferenceIdeal.Value.run (F := Ideal) m ρ),
  -- the ideal pass rewrote no operation
  trivial,
  -- both runs end with the cell arrays of arguments that agree
  by
    intro m ρ m' ρ' _ hagree
    refine ⟨_, _, Cert.LstmKernel.run m ρ, ?_⟩
    refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v62_eq, Cert.LstmRef.ref_newH, (hagree c).1, (hagree c).2.1, (hagree c).2.2.1,
        (hagree c).2.2.2.1, (hagree c).2.2.2.2.1, (hagree c).2.2.2.2.2.1, (hagree c).2.2.2.2.2.2.1, (hagree c).2.2.2.2.2.2.2]
    · rw [Cert.ReferenceIdeal.Read.val_main_v54_eq, Cert.LstmRef.ref_newC, (hagree c).1, (hagree c).2.1, (hagree c).2.2.1,
        (hagree c).2.2.2.1, (hagree c).2.2.2.2.1, (hagree c).2.2.2.2.2.1, (hagree c).2.2.2.2.2.2.1, (hagree c).2.2.2.2.2.2.2]⟩

end Cert.Proof

end
